-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x40 .f32) (main_arg5 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 104
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x40, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x40, .f32⟩
  | .hbm, ⟨79, _⟩ => ⟨S850000x1, .f32⟩
  | .hbm, ⟨80, _⟩ => ⟨S850000x40, .f32⟩
  | .hbm, ⟨81, _⟩ => ⟨S850000x40, .f32⟩
  | .hbm, ⟨82, _⟩ => ⟨S_, .f32⟩
  | .hbm, ⟨83, _⟩ => ⟨S50000x40, .f32⟩
  | .hbm, ⟨84, _⟩ => ⟨S850000x1, .i32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x40, .f32⟩
  | .hbm, ⟨96, _⟩ => ⟨S50000x40, .f32⟩
  | .hbm, ⟨97, _⟩ => ⟨S50000x40, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x40, .f32⟩
  | .hbm, ⟨103, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x40, .f32⟩
  | .local _ .vmem, ⟨8, _⟩ => ⟨S5000x40, .f32⟩
  | .local _ .vmem, ⟨9, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_call1_cst : Ref sig .tc := ⟨.hbm, 89, rfl⟩
abbrev main_call1_v0 : Ref sig .tc := ⟨.hbm, 90, rfl⟩
abbrev main_call1_cst_0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_cst_1 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_v67 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S50000x40.size a
  hwx1_2 : ∀ i : grid1.Coords, EltTy.bits .f32 = 32 ∨ (Rect.block (s := S50000x40) S5000x40.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S50000, .i32⟩
  | 12 => ⟨S850000, .i32⟩
  | 13 => ⟨S850000, .i32⟩
  | 14 => ⟨S_, .f32⟩
  | 15 => ⟨S50000, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S_, .f32⟩
  | 25 => ⟨S850000, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x40, .f32⟩
  | 70 => ⟨S50000, .i32⟩
  | 71 => ⟨S850000, .i32⟩
  | 72 => ⟨S850000, .i32⟩
  | 73 => ⟨S_, .f32⟩
  | 74 => ⟨S50000, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S_, .f32⟩
  | 84 => ⟨S850000, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x40, .f32⟩
  | 115 => ⟨S850000x1, .f32⟩
  | 116 => ⟨S850000x40, .f32⟩
  | 117 => ⟨S850000x40, .f32⟩
  | 118 => ⟨S_, .f32⟩
  | 119 => ⟨S50000x40, .f32⟩
  | 120 => ⟨S850000x1, .i32⟩
  | 121 => ⟨S50000x40, .f32⟩
  | 122 => ⟨S1x40, .f32⟩
  | 123 => ⟨S50000x40, .f32⟩
  | 124 => ⟨S50000x40, .f32⟩
  | 125 => ⟨S_, .f32⟩
  | 126 => ⟨S50000, .f32⟩
  | 127 => ⟨S_, .f32⟩
  | _ => ⟨S50000x256, .f32⟩

abbrev hbmTy0_1 (i : Nat) : BufTy := match i % 128 with
  | 0 => ⟨S50000, .f32⟩
  | 1 => ⟨S50000, .f32⟩
  | 2 => ⟨S50000x1, .f32⟩
  | 3 => ⟨S50000x40, .f32⟩
  | 4 => ⟨S50000x40, .f32⟩
  | 5 => ⟨S50000x40, .f32⟩
  | 6 => ⟨S_, .f32⟩
  | 7 => ⟨S50000, .f32⟩
  | 8 => ⟨S50000x1, .f32⟩
  | 9 => ⟨S50000x1, .f32⟩
  | 10 => ⟨S50000x40, .f32⟩
  | 11 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_c_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_19 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call1_cst : Ref sig .tc := ⟨.hbm, 125, rfl⟩
abbrev main_call1_v0 : Ref sig .tc := ⟨.hbm, 126, rfl⟩
abbrev main_call1_cst_0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_cst_1 : Ref sig .tc := ⟨.hbm, 134, rfl⟩
abbrev main_call1_v7 : Ref sig .tc := ⟨.hbm, 135, rfl⟩
abbrev main_call1_v8 : Ref sig .tc := ⟨.hbm, 136, rfl⟩
abbrev main_call1_v9 : Ref sig .tc := ⟨.hbm, 137, rfl⟩
abbrev main_call1_v10 : Ref sig .tc := ⟨.hbm, 138, rfl⟩
abbrev main_v95 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The network program's run with its result named.

  @main is seven segments: host operations, the first dense product's region, host operations (two stretches), the second
  product's region, host operations (two stretches). The buffers' contents at each boundary are a fold from the launch
  memory (`W0` … `W7`), and every weakly fair execution ends with every unscoped buffer at the last boundary's contents.
  So the result buffer ends at `W7` read at it, the six arguments as launched: the statement below, by the launch
  theorem for a program of several regions over the generated segments.
-/
import proofs.«109161_j51513837748925_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v67) = W7 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v67 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunResult

end
-- ==== Proof.StagesK.lean ====
/-
  The layers of the two-layer graph convolution, as functions of whole arrays.

  From the [2, E] edge list e: the source and target lists, each with one self loop per node appended; a node's degree,
  the number of edges that end at it; an edge's weight rsqrt(deg(source)) · rsqrt(deg(target)). A layer takes the dense
  product xw of the node features, gathers the source's row for every edge, scales it by the edge's weight, sums the rows
  of the edges that end at each node, and adds the bias; the first layer then takes the maximum with zero, the second
  subtracts each row's log-sum-exp. These are the program's own host operations, spelt once; each layer is stated
  first over given source, target and weight lists (`…Of`), then over the edge list.
-/
import proofs.«109161_j51513837748925_1_alg».proof.KernelIdeal
import proofs.«109161_j51513837748925_1_alg».proof.Proof.Gen.KernelIdeal

noncomputable section

namespace Cert.KernelIdeal.Stages

open Idealize.ShloMosaic Idealize.SL.Sem Cert.KernelIdeal Cert.KernelIdeal.Gen

variable {F : FTy → Type} [FloatOps F]

/-- Row 0 of the [2, 800000] edge list as a list of 800000 numbers: each edge's source. -/
def row0 (e : Vec F S2x800000 .i32) : Vec F S800000 .i32 :=
  shapeCast _ (extractStridedSlice S1x800000 ![0, 0] e slices_S2x800000_S1x800000_0_0) shapeCasts_S1x800000_S800000

/-- Row 1 of the edge list: each edge's target. -/
def row1 (e : Vec F S2x800000 .i32) : Vec F S800000 .i32 :=
  shapeCast _ (extractStridedSlice S1x800000 ![1, 0] e slices_S2x800000_S1x800000_1_0) shapeCasts_S1x800000_S800000

/-- 800000 edge ends, then the nodes 0 … 49999 (one self loop per node). -/
def withLoops (r : Vec F S800000 .i32) : Vec F S850000 .i32 :=
  concatenate S850000 0 [⟨S800000, r⟩, ⟨S50000, iotaInDim S50000 32 0⟩] concatenates_S800000_S50000_S850000_d0

/-- The sources, self loops included. -/
def srcs (e : Vec F S2x800000 .i32) : Vec F S850000 .i32 := withLoops (row0 e)

/-- The targets, self loops included. -/
def dsts (e : Vec F S2x800000 .i32) : Vec F S850000 .i32 := withLoops (row1 e)

/-- A list of node numbers as the one-column index list a gather or scatter takes, a negative number counted from the end. -/
def column (v : Vec F S850000 .i32) : Vec F S850000x1 .i32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The number of listed edges that end at each node, from the target list. -/
def degreeOf (d : Vec F S850000 .i32) : Vec F S50000 .f32 :=
  Host.scatterAdd scatter_S50000_S850000x1_S850000_n_0_0_1
    (broadcastInDim S50000 ![] bcast_S_S50000 (constant (F := F) S_ .f32 0x00000000#32))
    (column d)
    (broadcastInDim S850000 ![] bcast_S_S850000 (constant (F := F) S_ .f32 0x3F800000#32))

/-- An edge's weight, from the source and target lists: rsqrt of its source's degree times rsqrt of its target's. -/
def weightOf (s d : Vec F S850000 .i32) : Vec F S850000 .f32 :=
  mulf (Host.gather gather_S50000_S850000x1_S850000_n_0_n_n_0_1_1 (Host.rsqrt (degreeOf d)) (column s))
    (Host.gather gather_S50000_S850000x1_S850000_n_0_n_n_0_1_1 (Host.rsqrt (degreeOf d)) (column d))

/-- The edge weights of an edge list. -/
def weight (e : Vec F S2x800000 .i32) : Vec F S850000 .f32 := weightOf (srcs e) (dsts e)

/-- The first layer after its product xw, before the maximum with zero, over given lists: weighted source rows
    summed at each edge's target, plus the bias. -/
def preOf (xw : Vec F S50000x128 .f32) (s d : Vec F S850000 .i32) (w : Vec F S850000 .f32) (b : Vec F S128 .f32) :
    Vec F S50000x128 .f32 :=
  addf
    (Host.scatterAdd scatter_S50000x128_S850000x1_S850000x128_1_0_0_1
      (broadcastInDim S50000x128 ![] bcast_S_S50000x128 (constant (F := F) S_ .f32 0x00000000#32))
      (broadcastInDim S850000x1 ![0] bcast_S850000_S850000x1_0 d)
      (mulf (Host.gather gather_S50000x128_S850000x1_S850000x128_1_0_n_n_0_1_1128 xw (column s))
        (broadcastInDim S850000x128 ![0, 1] bcast_S850000x1_S850000x128_0_1
          (broadcastInDim S850000x1 ![0] bcast_S850000_S850000x1_0 w))))
    (broadcastInDim S50000x128 ![0, 1] bcast_S1x128_S50000x128_0_1 (broadcastInDim S1x128 ![1] bcast_S128_S1x128_1 b))

/-- The maximum with zero, entry by entry. -/
def relu (z : Vec F S50000x128 .f32) : Vec F S50000x128 .f32 :=
  maximumf z (broadcastInDim S50000x128 ![] bcast_S_S50000x128 (constant (F := F) S_ .f32 0x00000000#32))

/-- The first layer after its product xw, over given lists. -/
def hiddenOf (xw : Vec F S50000x128 .f32) (s d : Vec F S850000 .i32) (w : Vec F S850000 .f32) (b : Vec F S128 .f32) :
    Vec F S50000x128 .f32 :=
  relu (preOf xw s d w b)

/-- The first layer after its product, over the edge list. -/
def hidden (xw : Vec F S50000x128 .f32) (e : Vec F S2x800000 .i32) (b : Vec F S128 .f32) : Vec F S50000x128 .f32 :=
  hiddenOf xw (srcs e) (dsts e) (weight e) b

/-- The second layer after its product xw, before the softmax, over given lists. -/
def logitsOf (xw : Vec F S50000x40 .f32) (s d : Vec F S850000 .i32) (w : Vec F S850000 .f32) (b : Vec F S40 .f32) :
    Vec F S50000x40 .f32 :=
  addf
    (Host.scatterAdd scatter_S50000x40_S850000x1_S850000x40_1_0_0_1
      (broadcastInDim S50000x40 ![] bcast_S_S50000x40 (constant (F := F) S_ .f32 0x00000000#32))
      (broadcastInDim S850000x1 ![0] bcast_S850000_S850000x1_0 d)
      (mulf (Host.gather gather_S50000x40_S850000x1_S850000x40_1_0_n_n_0_1_140 xw (column s))
        (broadcastInDim S850000x40 ![0, 1] bcast_S850000x1_S850000x40_0_1
          (broadcastInDim S850000x1 ![0] bcast_S850000_S850000x1_0 w))))
    (broadcastInDim S50000x40 ![0, 1] bcast_S1x40_S50000x40_0_1 (broadcastInDim S1x40 ![1] bcast_S40_S1x40_1 b))

/-- The second layer after its product, before the softmax, over the edge list. -/
def logits (xw : Vec F S50000x40 .f32) (e : Vec F S2x800000 .i32) (b : Vec F S40 .f32) : Vec F S50000x40 .f32 :=
  logitsOf xw (srcs e) (dsts e) (weight e) b

/-- A [50000, 40] array minus each row's maximum. -/
def shifted (z : Vec F S50000x40 .f32) : Vec F S50000x40 .f32 :=
  subf z
    (broadcastInDim S50000x40 ![0, 1] bcast_S50000x1_S50000x40_0_1
      (broadcastInDim S50000x1 ![0] bcast_S50000_S50000x1_0
        (maximumf (broadcastInDim S50000 ![] bcast_S_S50000 (constant (F := F) S_ .f32 0xFF800000#32))
          (Host.reduce FloatOps.maximumf z (constant (F := F) S_ .f32 0xFF800000#32) reducesTo_S50000x40_S50000_d1 h_S_))))

/-- The logarithm of the softmax of each row. -/
def logSoftmax (z : Vec F S50000x40 .f32) : Vec F S50000x40 .f32 :=
  subf (shifted z)
    (broadcastInDim S50000x40 ![0, 1] bcast_S50000x1_S50000x40_0_1
      (Host.log
        (broadcastInDim S50000x1 ![0] bcast_S50000_S50000x1_0
          (Host.reduceAdd (Host.exp (shifted z)) (constant (F := F) S_ .f32 0x00000000#32) reducesTo_S50000x40_S50000_d1 h_S_))))

end Cert.KernelIdeal.Stages

end
-- ==== Proof.LibHostReads.lean ====
/-
  Reading a line of host operations at a buffer, below an operand list.

  The buffers after a line of host operations are a fold: each operation rewrites its result buffer to its function of
  its operands' contents and leaves every other buffer as it was. One rewriting pass (`after_results_simp`) computes
  such a read down to the arguments, except below an operand LIST — the pieces of a concatenation, a list of pairs
  (shape, array) — where the pass does not descend and leaves reads of the form "this operation's result over what
  came before, at that buffer". The tactic `host_reads` finishes those reads one operation at a time: an operation's
  result at its own buffer is its function's value, at another buffer what was there (the two buffers told apart as
  references). Use: `simp only [<the list's name>]; after_results_simp; host_reads`, then `rfl` or the certificate's
  own lemma. General: nothing here depends on a program.
-/
import Idealize.ShloMosaic.Lib.StableHlo.Run

namespace Cert.LibHostReads

open Idealize.ShloMosaic Idealize.ShloMosaic.StableHlo

/-- Each operation's result at its own buffer is its function's value, at another buffer what was there. -/
macro "host_reads" : tactic =>
  `(tactic| repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)))

end Cert.LibHostReads
-- ==== Proof.LibTRefCasts.lean ====
/-
  Contents carried to a typed reference's buffer and back.

  A module-local function's operations are stated over typed references: a reference together with a proof that its
  buffer's type is the tensor value's. Writing through one transports contents along that equation, reading transports
  them back. Written and then read through the same typed reference, contents are unchanged; and at a reference whose
  buffer type IS the value type each transport alone is the identity. General: nothing here depends on a program.
-/
import Idealize.ShloMosaic.Lib.StableHlo

namespace Cert.LibTRefCasts

open Idealize.ShloMosaic Idealize.ShloMosaic.StableHlo

variable {sig : RefSig} {Val : EltTy → Type}

/-- Contents written through a typed reference and read back through it are unchanged. -/
theorem ofBuf_toBuf {T : BufTy} (x : TRef sig T) (v : T.Contents Val) : x.ofBuf (x.toBuf v) = v := by
  obtain ⟨r, h, _, _⟩ := x
  subst h
  rfl

/-- Contents read through a typed reference and written back through it are unchanged. -/
theorem toBuf_ofBuf {T : BufTy} (x : TRef sig T) (v : x.ref.ty.Contents Val) : x.toBuf (x.ofBuf v) = v := by
  obtain ⟨r, h, _, _⟩ := x
  subst h
  rfl

/-- Contents written through a typed reference whose value type is the buffer's own type are unchanged. -/
theorem toBuf_self (r : Ref sig .tc) (h1 : r.ty = r.ty) (h2 : r.space ≠ .host) (h3 : r.isScoped = false) (v : r.ty.Contents Val) :
    (TRef.of (T := r.ty) r h1 h2 h3).toBuf v = v := rfl

/-- Contents read through a typed reference whose value type is the buffer's own type are unchanged. -/
theorem ofBuf_self (r : Ref sig .tc) (h1 : r.ty = r.ty) (h2 : r.space ≠ .host) (h3 : r.isScoped = false) (v : r.ty.Contents Val) :
    (TRef.of (T := r.ty) r h1 h2 h3).ofBuf v = v := rfl

end Cert.LibTRefCasts
-- ==== Proof.KernelStretches.lean ====
/-
  The network program's stretches of host operations, each read over ANY contents `W` of the buffers before it.

  The first stretch makes the edge lists and weights from the edge list; the second the first layer's aggregation and
  bias from the first product, the third its maximum with zero; the fourth the second layer's aggregation and bias from
  the second product, the fifth the log-softmax. Stated over a variable `W`, each is a small equation between the
  stretch's own operations and the layer functions.
-/
import proofs.«109161_j51513837748925_1_alg».proof.Proof.Gen.KernelIdeal.Launch
import proofs.«109161_j51513837748925_1_alg».proof.Proof.StagesK
import proofs.«109161_j51513837748925_1_alg».proof.Proof.LibHostReads
import proofs.«109161_j51513837748925_1_alg».proof.Proof.LibTRefCasts
import Idealize.ShloMosaic.Lib.StableHlo.Run
import Idealize.ShloMosaic.PureOps.Ideal

set_option maxRecDepth 16384

noncomputable section

namespace Cert.KernelIdeal.Stretches

open Idealize.ShloMosaic Idealize.ShloMosaic.TcCoe Idealize.ShloMosaic.StableHlo Idealize.SL.Sem
open Cert.KernelIdeal Cert.KernelIdeal.Gen Cert.KernelIdeal.Stages Cert.LibHostReads Cert.LibTRefCasts

variable (W : Valuation τ sig (Elt Ideal))

theorem srcs_eq : StableHlo.after hostOps0 W (Proc.devRef .tc main_v5) = srcs (W (Proc.devRef .tc main_arg1)) := by
  simp only [hostOps0]; after_results_simp; host_reads
  rfl

theorem dsts_eq : StableHlo.after hostOps0 W (Proc.devRef .tc main_v6) = dsts (W (Proc.devRef .tc main_arg1)) := by
  simp only [hostOps0]; after_results_simp; host_reads
  rfl

theorem weight_eq : StableHlo.after hostOps0 W (Proc.devRef .tc main_v31) = weight (W (Proc.devRef .tc main_arg1)) := by
  simp only [hostOps0]; after_results_simp; host_reads
  rfl

theorem pre_eq : StableHlo.after hostOps1 W (Proc.devRef .tc main_v48)
    = preOf (W (Proc.devRef .tc main_v32)) (W (Proc.devRef .tc main_v5)) (W (Proc.devRef .tc main_v6)) (W (Proc.devRef .tc main_v31)) (W (Proc.devRef .tc main_arg3)) := by
  simp only [hostOps1]; after_results_simp
  rfl

/-- At the buffers the two called functions read and write, the buffer's type is the tensor value's: contents pass
    through the typed reference unchanged. -/
theorem toBuf_v49 (h1 : main_v49.ty = ⟨S50000x128, .f32⟩) (h2 : main_v49.space ≠ .host) (h3 : main_v49.isScoped = false)
    (v : Vec Ideal S50000x128 .f32) : (TRef.of (sig := sig) (T := ⟨S50000x128, .f32⟩) main_v49 h1 h2 h3).toBuf (Val := Elt Ideal) v = v := rfl
theorem ofBuf_v48 (h1 : main_v48.ty = ⟨S50000x128, .f32⟩) (h2 : main_v48.space ≠ .host) (h3 : main_v48.isScoped = false)
    (v : Vec Ideal S50000x128 .f32) : (TRef.of (sig := sig) (T := ⟨S50000x128, .f32⟩) main_v48 h1 h2 h3).ofBuf (Val := Elt Ideal) v = v := rfl
theorem toBuf_v67 (h1 : main_v67.ty = ⟨S50000x40, .f32⟩) (h2 : main_v67.space ≠ .host) (h3 : main_v67.isScoped = false)
    (v : Vec Ideal S50000x40 .f32) : (TRef.of (sig := sig) (T := ⟨S50000x40, .f32⟩) main_v67 h1 h2 h3).toBuf (Val := Elt Ideal) v = v := rfl
theorem ofBuf_v66 (h1 : main_v66.ty = ⟨S50000x40, .f32⟩) (h2 : main_v66.space ≠ .host) (h3 : main_v66.isScoped = false)
    (v : Vec Ideal S50000x40 .f32) : (TRef.of (sig := sig) (T := ⟨S50000x40, .f32⟩) main_v66 h1 h2 h3).ofBuf (Val := Elt Ideal) v = v := rfl

theorem relu_eq : StableHlo.after hostOps1_1 W (Proc.devRef .tc main_v49) = relu (W (Proc.devRef .tc main_v48)) := by
  simp only [hostOps1_1]; after_results_simp
  simp only [ofBuf_toBuf]
  rw [toBuf_v49, ofBuf_v48]
  rfl

theorem hidden_eq : StableHlo.after hostOps1_1 (StableHlo.after hostOps1 W) (Proc.devRef .tc main_v49)
    = hiddenOf (W (Proc.devRef .tc main_v32)) (W (Proc.devRef .tc main_v5)) (W (Proc.devRef .tc main_v6)) (W (Proc.devRef .tc main_v31)) (W (Proc.devRef .tc main_arg3)) :=
  (relu_eq (StableHlo.after hostOps1 W)).trans (congrArg relu (pre_eq W))

theorem logits_eq : StableHlo.after hostOps2 W (Proc.devRef .tc main_v66)
    = logitsOf (W (Proc.devRef .tc main_v50)) (W (Proc.devRef .tc main_v5)) (W (Proc.devRef .tc main_v6)) (W (Proc.devRef .tc main_v31)) (W (Proc.devRef .tc main_arg5)) := by
  simp only [hostOps2]; after_results_simp
  rfl

theorem logSoftmax_eq : StableHlo.after hostOps2_1 W (Proc.devRef .tc main_v67) = logSoftmax (W (Proc.devRef .tc main_v66)) := by
  simp only [hostOps2_1]; after_results_simp
  simp only [ofBuf_toBuf]
  rw [toBuf_v67, ofBuf_v66]
  rfl

theorem result_eq : StableHlo.after hostOps2_1 (StableHlo.after hostOps2 W) (Proc.devRef .tc main_v67)
    = logSoftmax (logitsOf (W (Proc.devRef .tc main_v50)) (W (Proc.devRef .tc main_v5)) (W (Proc.devRef .tc main_v6)) (W (Proc.devRef .tc main_v31)) (W (Proc.devRef .tc main_arg5))) :=
  (logSoftmax_eq (StableHlo.after hostOps2 W)).trans (congrArg logSoftmax (logits_eq W))

end Cert.KernelIdeal.Stretches

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«109161_j51513837748925_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.MatProd.lean ====
/-
  The matrix product as a function of the entry.

  `prod X W` at entry (r, c) of an [A, B] array is Σ_{k < K} X (r, k) · W (k, c) over the extended reals. Both ways the
  two programs compute a dense layer's product are this function: the host's `dot_general` of plain dimension numbers
  directly, and a `tpu.matmul` into the zero accumulator of operands whose change of float format is the identity.
-/
import proofs.«109161_j51513837748925_1_alg».proof.Proof.LibPlainDotFormats

noncomputable section

namespace Cert.MatProd

open Idealize.ShloMosaic Idealize.ShloMosaic.ValueIdx Cert.LibPlainDot

/-- Entry (r, c) of the product of an [A, K] array and a [K, B] array. -/
def prod {A K B : Nat} (X : (⟨2, ![A, K]⟩ : Shape).Idx → EReal) (W : (⟨2, ![K, B]⟩ : Shape).Idx → EReal) :
    (⟨2, ![A, B]⟩ : Shape).Idx → EReal :=
  fun i => ∑ k : Fin K, X (ix2 (i 0) k) * W (ix2 k (i 1))

theorem prod_ix2 {A K B : Nat} (X : (⟨2, ![A, K]⟩ : Shape).Idx → EReal) (W : (⟨2, ![K, B]⟩ : Shape).Idx → EReal)
    (p : Fin A) (c : Fin B) : prod X W (ix2 p c) = ∑ k : Fin K, X (ix2 p k) * W (ix2 k c) := rfl

variable {A K B : Nat} {D : DotDims ⟨2, ![A, K]⟩ ⟨2, ![K, B]⟩ ⟨2, ![A, B]⟩}

/-- The host's `dot_general` of plain dimension numbers is the product, entry by entry. -/
theorem dotGeneral_eq_prod (h : Plain D) (prec : Option ContractPrecision)
    (l : FVec Ideal ⟨2, ![A, K]⟩ .f32) (r : FVec Ideal ⟨2, ![K, B]⟩ .f32) :
    Host.dotGeneral D prec l r = prod l r := by
  funext i
  obtain ⟨p, c, rfl⟩ : ∃ (p : Fin A) (c : Fin B), i = ix2 p c := ⟨i 0, i 1, eq_ix2 i⟩
  exact h.dotGeneral_apply prec _ l r p c

/-- A `tpu.matmul` into the zero accumulator of operands narrowed to another float format first: over the extended
    reals the narrowing is the identity, so an entry is the product's. -/
theorem matmul_truncf_apply (h : Plain D) (prec : Option ContractPrecision) {ψ : FTy}
    (h₁ : ψ.bits < FTy.f32.bits)
    (l : FVec Ideal ⟨2, ![A, K]⟩ .f32) (r : FVec Ideal ⟨2, ![K, B]⟩ .f32) (p : Fin A) (c : Fin B) :
    matmul D prec (truncf ψ l h₁) (truncf ψ r h₁) (constant ⟨2, ![A, B]⟩ .f32 0x00000000#32) (ix2 p c)
      = ∑ k : Fin K, l (ix2 p k) * r (ix2 k c) :=
  h.matmul_zero_apply_formats prec (truncf ψ l h₁) (truncf ψ r h₁) p c

end Cert.MatProd

end
-- ==== Proof.Blocks0.lean ====
/-
  Region 0 of the network's program: a dense layer's product computed 10 row blocks at a time.

  Grid point t loads rows 5000·t … 5000·t + 4999 of the [50000, 256] left operand and the whole [256, 128] right operand, and writes
  back the [5000, 128] block whose entry (p, c) is Σ_k left(5000·t + p, k) · right(k, c): the product's entry (5000·t + p, c). The 10
  blocks tile the [50000, 128] result, so the array the region leaves is the product of the two arrays it found, entry by entry.
  Stated at any contents `V` of the buffers at the region's entry.
-/
import proofs.«109161_j51513837748925_1_alg».proof.Proof.Gen.KernelIdeal.Frame
import proofs.«109161_j51513837748925_1_alg».proof.Proof.MatProd
import Idealize.ShloMosaic.Lib.Pipeline.Value
import Idealize.ShloMosaic.Lib.ValueIdx

noncomputable section

namespace Cert.KernelIdeal.Blocks0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MatProd Cert.LibPlainDot

variable (V : (c : Dev nD) → (b : Ref sig .tc) → Buf (Elt Ideal) ((c : Thread nD τ).loc b))

theorem zero_offsets : (![0, 0] : Fin 2 → Nat) = fun _ => 0 := funext fun a => by fin_cases a <;> rfl

/-- The body's contraction is a plain product: second axis of the left operand against the first of the right. -/
theorem plain : Plain dot_S5000x256_S256x128_S5000x128_1_0_0_1_n_n := ⟨rfl, rfl, rfl, rfl, rfl, rfl⟩

/-- What the body stores, at entry (p, c) of its block: Σ_k left(p, k) · right(k, c) of the two blocks it loaded. -/
theorem payload_apply (x0 : Vec Ideal S5000x256 .f32) (x1 : Vec Ideal S256x128 .f32) (p : Fin 5000) (c : Fin 128) :
    k0_pay1 (F := Ideal) x0 x1 (ix2 p c) = ∑ k : Fin 256, x0 (ix2 p k) * x1 (ix2 k c) :=
  matmul_truncf_apply plain none bitsLt_bf16_f32 x0 x1 p c

/-- The printed index maps over the grid: the left operand's and the result's row blocks move together with the
    point, every other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, read at (p, k), is the array's entry (5000·t + p, k). -/
theorem left_block (c : Dev nD) (t : Fin cfg0.N) (p : Fin 5000) (k : Fin 256) (r : Fin 50000) (hr : r.val = t.val * 5000 + p.val) :
    iblk0 V c 0 t (ix2 p k) = V c main_arg0 (ix2 r k) := by
  obtain ⟨e0, e1, -, -, -, -⟩ := index_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The right operand's block at any point is the whole array. -/
theorem right_block (c : Dev nD) (t : Fin cfg0.N) (k : Fin 256) (q : Fin 128) :
    iblk0 V c 1 t (ix2 k q) = V c main_arg2 (ix2 k q) := by
  obtain ⟨-, -, e2, e3, -, -⟩ := index_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- WHAT POINT t WRITES BACK is block t of the product of the two arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x128) zero_offsets]
  obtain ⟨-, -, -, -, e4, e5⟩ := index_facts t
  funext j
  obtain ⟨p, q, rfl⟩ : ∃ (p : Fin 5000) (q : Fin 128), j = ix2 p q := ⟨j 0, j 1, eq_ix2 j⟩
  have ht : t.val < 10 := t.isLt
  have hp : p.val < 5000 := p.isLt
  let r : Fin 50000 := ⟨t.val * 5000 + p.val, by omega⟩
  have hemb : ((cfg0.win 2).blk t).view.emb (ix2 p q) = ix2 r q := funext fun a => Fin.ext (by
    match a with
    | ⟨0, _⟩ => show win0_2.index t (0 : Fin 2) * 5000 + 1 * p.val = t.val * 5000 + p.val; omega
    | ⟨1, _⟩ => show win0_2.index t (1 : Fin 2) * 128 + 1 * q.val = q.val; omega)
  show k0_pay1 (F := Ideal) (iblk0 V c 0 t) (iblk0 V c 1 t) (ix2 p q)
      = prod (V c main_arg0) (V c main_arg2) (((cfg0.win 2).blk t).view.emb (ix2 p q))
  rw [hemb]
  refine (payload_apply (iblk0 V c 0 t) (iblk0 V c 1 t) p q).trans ?_
  refine Finset.sum_congr rfl fun k _ => ?_
  exact congrArg₂ (· * ·) (left_block V c t p k r rfl) (right_block V c t k q)

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every entry of the result lies in the block of the point its row names: row r in block r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show (i 0).val / 5000 < 10; omega⟩
  have htv : t.val = (i 0).val / 5000 := rfl
  obtain ⟨-, -, -, -, e4, e5⟩ := index_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY the region leaves: the product of the two operand arrays as the region found them. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Blocks0

end
-- ==== Proof.Blocks1.lean ====
/-
  Region 1 of the network's program: a dense layer's product computed 10 row blocks at a time.

  Grid point t loads rows 5000·t … 5000·t + 4999 of the [50000, 128] left operand and the whole [128, 40] right operand, and writes
  back the [5000, 40] block whose entry (p, c) is Σ_k left(5000·t + p, k) · right(k, c): the product's entry (5000·t + p, c). The 10
  blocks tile the [50000, 40] result, so the array the region leaves is the product of the two arrays it found, entry by entry.
  Stated at any contents `V` of the buffers at the region's entry.
-/
import proofs.«109161_j51513837748925_1_alg».proof.Proof.Gen.KernelIdeal.Frame
import proofs.«109161_j51513837748925_1_alg».proof.Proof.MatProd
import Idealize.ShloMosaic.Lib.Pipeline.Value
import Idealize.ShloMosaic.Lib.ValueIdx

noncomputable section

namespace Cert.KernelIdeal.Blocks1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MatProd Cert.LibPlainDot

variable (V : (c : Dev nD) → (b : Ref sig .tc) → Buf (Elt Ideal) ((c : Thread nD τ).loc b))

theorem zero_offsets : (![0, 0] : Fin 2 → Nat) = fun _ => 0 := funext fun a => by fin_cases a <;> rfl

/-- The body's contraction is a plain product: second axis of the left operand against the first of the right. -/
theorem plain : Plain dot_S5000x128_S128x40_S5000x40_1_0_0_1_n_n := ⟨rfl, rfl, rfl, rfl, rfl, rfl⟩

/-- What the body stores, at entry (p, c) of its block: Σ_k left(p, k) · right(k, c) of the two blocks it loaded. -/
theorem payload_apply (x0 : Vec Ideal S5000x128 .f32) (x1 : Vec Ideal S128x40 .f32) (p : Fin 5000) (c : Fin 40) :
    k1_pay1 (F := Ideal) x0 x1 (ix2 p c) = ∑ k : Fin 128, x0 (ix2 p k) * x1 (ix2 k c) :=
  (congrArg (fun z : FVec Ideal S5000x128 .f32 => matmul dot_S5000x128_S128x40_S5000x40_1_0_0_1_n_n none (truncf .bf16 z bitsLt_bf16_f32) (truncf .bf16 x1 bitsLt_bf16_f32) (constant S5000x40 .f32 0x00000000#32) (ix2 p c)) (shapeCast_self x0 _)).trans
    (matmul_truncf_apply plain none bitsLt_bf16_f32 x0 x1 p c)

/-- The printed index maps over the grid: the left operand's and the result's row blocks move together with the
    point, every other block index is zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t, read at (p, k), is the array's entry (5000·t + p, k). -/
theorem left_block (c : Dev nD) (t : Fin cfg1.N) (p : Fin 5000) (k : Fin 128) (r : Fin 50000) (hr : r.val = t.val * 5000 + p.val) :
    iblk1 V c 0 t (ix2 p k) = V c main_v49 (ix2 r k) := by
  obtain ⟨e0, e1, -, -, -, -⟩ := index_facts t
  show V c main_v49 (((cfg1.win 0).blk t).view.emb (ix2 p k)) = V c main_v49 (ix2 r k)
  refine congrArg (V c main_v49) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The right operand's block at any point is the whole array. -/
theorem right_block (c : Dev nD) (t : Fin cfg1.N) (k : Fin 128) (q : Fin 40) :
    iblk1 V c 1 t (ix2 k q) = V c main_arg4 (ix2 k q) := by
  obtain ⟨-, -, e2, e3, -, -⟩ := index_facts t
  show V c main_arg4 (((cfg1.win 1).blk t).view.emb (ix2 k q)) = V c main_arg4 (ix2 k q)
  refine congrArg (V c main_arg4) (funext fun a => Fin.ext ?_)
  match a with
  | ⟨0, _⟩ => show win1_1.index t (0 : Fin 2) * 128 + 1 * k.val = k.val; omega
  | ⟨1, _⟩ => show win1_1.index t (1 : Fin 2) * 40 + 1 * q.val = q.val; omega

/-- WHAT POINT t WRITES BACK is block t of the product of the two arrays as the region finds them. -/
theorem flushed_eq (c : Dev nD) (t : Fin cfg1.N) :
    (dat1 V c).flushed 2 t = ((cfg1.win 2).blk t).view.read (Elt Ideal) (prod (V c main_v49) (V c main_arg4)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x40) zero_offsets]
  obtain ⟨-, -, -, -, e4, e5⟩ := index_facts t
  funext j
  obtain ⟨p, q, rfl⟩ : ∃ (p : Fin 5000) (q : Fin 40), j = ix2 p q := ⟨j 0, j 1, eq_ix2 j⟩
  have ht : t.val < 10 := t.isLt
  have hp : p.val < 5000 := p.isLt
  let r : Fin 50000 := ⟨t.val * 5000 + p.val, by omega⟩
  have hemb : ((cfg1.win 2).blk t).view.emb (ix2 p q) = ix2 r q := funext fun a => Fin.ext (by
    match a with
    | ⟨0, _⟩ => show win1_2.index t (0 : Fin 2) * 5000 + 1 * p.val = t.val * 5000 + p.val; omega
    | ⟨1, _⟩ => show win1_2.index t (1 : Fin 2) * 40 + 1 * q.val = q.val; omega)
  show k1_pay1 (F := Ideal) (iblk1 V c 0 t) (iblk1 V c 1 t) (ix2 p q)
      = prod (V c main_v49) (V c main_arg4) (((cfg1.win 2).blk t).view.emb (ix2 p q))
  rw [hemb]
  refine (payload_apply (iblk1 V c 0 t) (iblk1 V c 1 t) p q).trans ?_
  refine Finset.sum_congr rfl fun k _ => ?_
  exact congrArg₂ (· * ·) (left_block V c t p k r rfl) (right_block V c t k q)

/-- An index of the result array is in point t's block iff each coordinate is in the block's range on its axis. -/
theorem mem_blk (t : Fin cfg1.N) (i : S50000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v50).slice (win1_2.rect t)).set ↔ _
  rw [View.set_slice_whole, Rect.mem_set_unit]
  exact Iff.rfl

/-- Every entry of the result lies in the block of the point its row names: row r in block r / 5000. -/
theorem cover (i : S50000x40.Idx) :
    ∃ t : Fin cfg1.N, (cfg1.win 2).flush t = true ∧ i ∈ ((cfg1.win 2).blk t).view.set := by
  have hi0 : (i 0).val < 50000 := (i 0).isLt
  have hi1 : (i 1).val < 40 := (i 1).isLt
  let t : Fin cfg1.N := ⟨(i 0).val / 5000, by show (i 0).val / 5000 < 10; omega⟩
  have htv : t.val = (i 0).val / 5000 := rfl
  obtain ⟨-, -, -, -, e4, e5⟩ := index_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- THE ARRAY the region leaves: the product of the two operand arrays as the region found them. -/
theorem final (c : Dev nD) : (dat1 V c).arrAt 2 cfg1.N = prod (V c main_v49) (V c main_arg4) :=
  (dat1 V c).arrAt_eq_of_cover 2 (prod (V c main_v49) (V c main_arg4)) (fun t _ => flushed_eq V c t) cover

end Cert.KernelIdeal.Blocks1

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.KernelValue.lean ====
/-
  What the network program's result buffer holds, read back through the seven segments of @main.

  The first stretch of host operations computes, from the edge list alone, the source and target lists and the edge
  weights; region 0 leaves the product x·W1; the next stretches make the hidden layer from it; region 1 leaves the
  product hidden·W2; the last stretches make the logits and their row-wise log-softmax. A buffer that a stretch or a
  region does not write keeps its contents, so the edge lists, the weights and the argument arrays are read at every
  later boundary as they were first written.
-/
import proofs.«109161_j51513837748925_1_alg».proof.Proof.Gen.KernelIdeal.Frame
import proofs.«109161_j51513837748925_1_alg».proof.Proof.StagesK
import proofs.«109161_j51513837748925_1_alg».proof.Proof.KernelStretches
import proofs.«109161_j51513837748925_1_alg».proof.Proof.Blocks0
import proofs.«109161_j51513837748925_1_alg».proof.Proof.Blocks1
import proofs.«109161_j51513837748925_1_alg».proof.Proof.LibKeeps
import Idealize.ShloMosaic.Lib.StableHlo.Run

set_option maxRecDepth 16384

noncomputable section

namespace Cert.KernelIdeal.Reads

open Idealize.ShloMosaic Idealize.ShloMosaic.TcCoe Idealize.ShloMosaic.StableHlo Idealize.SL.Sem
open Cert.KernelIdeal Cert.KernelIdeal.Gen Cert.KernelIdeal.Stages Cert.MatProd

variable (m : (ℓ : Loc nD τ sig) → Buf (Elt Ideal) ℓ) (ρ : Dev nD → PrngReg)

/-! ## After the first stretch: the edge lists and weights, the arguments untouched -/

theorem W1_srcs (c : Dev nD) : W1 m ρ c (Proc.devRef .tc main_v5) = srcs (m ((c.tc : Thread nD τ).loc main_arg1)) := Stretches.srcs_eq (W0 m ρ c)

theorem W1_dsts (c : Dev nD) : W1 m ρ c (Proc.devRef .tc main_v6) = dsts (m ((c.tc : Thread nD τ).loc main_arg1)) := Stretches.dsts_eq (W0 m ρ c)

theorem W1_weight (c : Dev nD) : W1 m ρ c (Proc.devRef .tc main_v31) = weight (m ((c.tc : Thread nD τ).loc main_arg1)) := Stretches.weight_eq (W0 m ρ c)

theorem W1_arg0 (c : Dev nD) : W1 m ρ c (Proc.devRef .tc main_arg0) = m ((c.tc : Thread nD τ).loc main_arg0) :=
  (show StableHlo.after hostOps0 (W0 m ρ c) (Proc.devRef .tc main_arg0) = W0 m ρ c (Proc.devRef .tc main_arg0) by keeps_host hostOps0).trans rfl

theorem W1_arg2 (c : Dev nD) : W1 m ρ c (Proc.devRef .tc main_arg2) = m ((c.tc : Thread nD τ).loc main_arg2) :=
  (show StableHlo.after hostOps0 (W0 m ρ c) (Proc.devRef .tc main_arg2) = W0 m ρ c (Proc.devRef .tc main_arg2) by keeps_host hostOps0).trans rfl

theorem W1_arg3 (c : Dev nD) : W1 m ρ c (Proc.devRef .tc main_arg3) = m ((c.tc : Thread nD τ).loc main_arg3) :=
  (show StableHlo.after hostOps0 (W0 m ρ c) (Proc.devRef .tc main_arg3) = W0 m ρ c (Proc.devRef .tc main_arg3) by keeps_host hostOps0).trans rfl

theorem W1_arg4 (c : Dev nD) : W1 m ρ c (Proc.devRef .tc main_arg4) = m ((c.tc : Thread nD τ).loc main_arg4) :=
  (show StableHlo.after hostOps0 (W0 m ρ c) (Proc.devRef .tc main_arg4) = W0 m ρ c (Proc.devRef .tc main_arg4) by keeps_host hostOps0).trans rfl

theorem W1_arg5 (c : Dev nD) : W1 m ρ c (Proc.devRef .tc main_arg5) = m ((c.tc : Thread nD τ).loc main_arg5) :=
  (show StableHlo.after hostOps0 (W0 m ρ c) (Proc.devRef .tc main_arg5) = W0 m ρ c (Proc.devRef .tc main_arg5) by keeps_host hostOps0).trans rfl

/-! ## After region 0: the first product; everything else as it was -/

theorem W2_xw (c : Dev nD) : W2 m ρ c (Proc.devRef .tc main_v32) = prod (m ((c.tc : Thread nD τ).loc main_arg0)) (m ((c.tc : Thread nD τ).loc main_arg2)) :=
  (W2_arr m ρ c 2).trans ((Blocks0.final (V1 m ρ) c).trans
    (congrArg₂ prod (W1_arg0 m ρ c) (W1_arg2 m ρ c)))

theorem W2_srcs (c : Dev nD) : W2 m ρ c (Proc.devRef .tc main_v5) = srcs (m ((c.tc : Thread nD τ).loc main_arg1)) :=
  (W2_of_ne m ρ c main_v5 (by decide)).trans (W1_srcs m ρ c)

theorem W2_dsts (c : Dev nD) : W2 m ρ c (Proc.devRef .tc main_v6) = dsts (m ((c.tc : Thread nD τ).loc main_arg1)) :=
  (W2_of_ne m ρ c main_v6 (by decide)).trans (W1_dsts m ρ c)

theorem W2_weight (c : Dev nD) : W2 m ρ c (Proc.devRef .tc main_v31) = weight (m ((c.tc : Thread nD τ).loc main_arg1)) :=
  (W2_of_ne m ρ c main_v31 (by decide)).trans (W1_weight m ρ c)

theorem W2_arg3 (c : Dev nD) : W2 m ρ c (Proc.devRef .tc main_arg3) = m ((c.tc : Thread nD τ).loc main_arg3) :=
  (W2_of_ne m ρ c main_arg3 (by decide)).trans (W1_arg3 m ρ c)

theorem W2_arg4 (c : Dev nD) : W2 m ρ c (Proc.devRef .tc main_arg4) = m ((c.tc : Thread nD τ).loc main_arg4) :=
  (W2_of_ne m ρ c main_arg4 (by decide)).trans (W1_arg4 m ρ c)

theorem W2_arg5 (c : Dev nD) : W2 m ρ c (Proc.devRef .tc main_arg5) = m ((c.tc : Thread nD τ).loc main_arg5) :=
  (W2_of_ne m ρ c main_arg5 (by decide)).trans (W1_arg5 m ρ c)

/-! ## After the next two stretches: the hidden layer -/

theorem W4_hidden (c : Dev nD) : W4 m ρ c (Proc.devRef .tc main_v49)
    = hidden (prod (m ((c.tc : Thread nD τ).loc main_arg0)) (m ((c.tc : Thread nD τ).loc main_arg2))) (m ((c.tc : Thread nD τ).loc main_arg1)) (m ((c.tc : Thread nD τ).loc main_arg3)) := by
  refine (Stretches.hidden_eq (W2 m ρ c)).trans ?_
  rw [W2_srcs, W2_dsts, W2_weight, W2_xw, W2_arg3]
  rfl

theorem W4_srcs (c : Dev nD) : W4 m ρ c (Proc.devRef .tc main_v5) = srcs (m ((c.tc : Thread nD τ).loc main_arg1)) :=
  (show StableHlo.after hostOps1_1 (W3 m ρ c) (Proc.devRef .tc main_v5) = W3 m ρ c (Proc.devRef .tc main_v5) by keeps_host hostOps1_1).trans
    ((show StableHlo.after hostOps1 (W2 m ρ c) (Proc.devRef .tc main_v5) = W2 m ρ c (Proc.devRef .tc main_v5) by keeps_host hostOps1).trans (W2_srcs m ρ c))

theorem W4_dsts (c : Dev nD) : W4 m ρ c (Proc.devRef .tc main_v6) = dsts (m ((c.tc : Thread nD τ).loc main_arg1)) :=
  (show StableHlo.after hostOps1_1 (W3 m ρ c) (Proc.devRef .tc main_v6) = W3 m ρ c (Proc.devRef .tc main_v6) by keeps_host hostOps1_1).trans
    ((show StableHlo.after hostOps1 (W2 m ρ c) (Proc.devRef .tc main_v6) = W2 m ρ c (Proc.devRef .tc main_v6) by keeps_host hostOps1).trans (W2_dsts m ρ c))

theorem W4_weight (c : Dev nD) : W4 m ρ c (Proc.devRef .tc main_v31) = weight (m ((c.tc : Thread nD τ).loc main_arg1)) :=
  (show StableHlo.after hostOps1_1 (W3 m ρ c) (Proc.devRef .tc main_v31) = W3 m ρ c (Proc.devRef .tc main_v31) by keeps_host hostOps1_1).trans
    ((show StableHlo.after hostOps1 (W2 m ρ c) (Proc.devRef .tc main_v31) = W2 m ρ c (Proc.devRef .tc main_v31) by keeps_host hostOps1).trans (W2_weight m ρ c))

theorem W4_arg4 (c : Dev nD) : W4 m ρ c (Proc.devRef .tc main_arg4) = m ((c.tc : Thread nD τ).loc main_arg4) :=
  (show StableHlo.after hostOps1_1 (W3 m ρ c) (Proc.devRef .tc main_arg4) = W3 m ρ c (Proc.devRef .tc main_arg4) by keeps_host hostOps1_1).trans
    ((show StableHlo.after hostOps1 (W2 m ρ c) (Proc.devRef .tc main_arg4) = W2 m ρ c (Proc.devRef .tc main_arg4) by keeps_host hostOps1).trans (W2_arg4 m ρ c))

theorem W4_arg5 (c : Dev nD) : W4 m ρ c (Proc.devRef .tc main_arg5) = m ((c.tc : Thread nD τ).loc main_arg5) :=
  (show StableHlo.after hostOps1_1 (W3 m ρ c) (Proc.devRef .tc main_arg5) = W3 m ρ c (Proc.devRef .tc main_arg5) by keeps_host hostOps1_1).trans
    ((show StableHlo.after hostOps1 (W2 m ρ c) (Proc.devRef .tc main_arg5) = W2 m ρ c (Proc.devRef .tc main_arg5) by keeps_host hostOps1).trans (W2_arg5 m ρ c))

/-! ## After region 1: the second product -/

theorem W5_xw (c : Dev nD) : W5 m ρ c (Proc.devRef .tc main_v50)
    = prod (hidden (prod (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4)) :=
  (W5_arr m ρ c 2).trans ((Blocks1.final (V4 m ρ) c).trans
    (congrArg₂ prod (W4_hidden m ρ c) (W4_arg4 m ρ c)))

theorem W5_srcs (c : Dev nD) : W5 m ρ c (Proc.devRef .tc main_v5) = srcs (m ((c.tc : Thread nD τ).loc main_arg1)) :=
  (W5_of_ne m ρ c main_v5 (by decide)).trans (W4_srcs m ρ c)

theorem W5_dsts (c : Dev nD) : W5 m ρ c (Proc.devRef .tc main_v6) = dsts (m ((c.tc : Thread nD τ).loc main_arg1)) :=
  (W5_of_ne m ρ c main_v6 (by decide)).trans (W4_dsts m ρ c)

theorem W5_weight (c : Dev nD) : W5 m ρ c (Proc.devRef .tc main_v31) = weight (m ((c.tc : Thread nD τ).loc main_arg1)) :=
  (W5_of_ne m ρ c main_v31 (by decide)).trans (W4_weight m ρ c)

theorem W5_arg5 (c : Dev nD) : W5 m ρ c (Proc.devRef .tc main_arg5) = m ((c.tc : Thread nD τ).loc main_arg5) :=
  (W5_of_ne m ρ c main_arg5 (by decide)).trans (W4_arg5 m ρ c)

/-! ## After the last two stretches: the result -/

/-- The result as one function of the six argument arrays. -/
def result (x : Vec Ideal S50000x256 .f32) (e : Vec Ideal S2x800000 .i32) (w1 : Vec Ideal S256x128 .f32) (b1 : Vec Ideal S128 .f32)
    (w2 : Vec Ideal S128x40 .f32) (b2 : Vec Ideal S40 .f32) : Vec Ideal S50000x40 .f32 :=
  logSoftmax (logits (prod (hidden (prod x w1) e b1) w2) e b2)

theorem W7_result (c : Dev nD) : W7 m ρ c (Proc.devRef .tc main_v67)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (Stretches.result_eq (W5 m ρ c)).trans ?_
  rw [W5_srcs, W5_dsts, W5_weight, W5_xw, W5_arg5]
  rfl

end Cert.KernelIdeal.Reads

end
-- ==== Proof.StagesR.lean ====
/-
  The layers of the two-layer graph convolution, as functions of whole arrays.

  From the [2, E] edge list e: the source and target lists, each with one self loop per node appended; a node's degree,
  the number of edges that end at it; an edge's weight rsqrt(deg(source)) · rsqrt(deg(target)). A layer takes the dense
  product xw of the node features, gathers the source's row for every edge, scales it by the edge's weight, sums the rows
  of the edges that end at each node, and adds the bias; the first layer then takes the maximum with zero, the second
  subtracts each row's log-sum-exp. These are the program's own host operations, spelt once; each layer is stated
  first over given source, target and weight lists (`…Of`), then over the edge list.
-/
import proofs.«109161_j51513837748925_1_alg».proof.ReferenceIdeal
import proofs.«109161_j51513837748925_1_alg».proof.Proof.Gen.ReferenceIdeal

noncomputable section

namespace Cert.ReferenceIdeal.Stages

open Idealize.ShloMosaic Idealize.SL.Sem Cert.ReferenceIdeal Cert.ReferenceIdeal.Gen

variable {F : FTy → Type} [FloatOps F]

/-- Row 0 of the [2, 800000] edge list as a list of 800000 numbers: each edge's source. -/
def row0 (e : Vec F S2x800000 .i32) : Vec F S800000 .i32 :=
  shapeCast _ (extractStridedSlice S1x800000 ![0, 0] e slices_S2x800000_S1x800000_0_0) shapeCasts_S1x800000_S800000

/-- Row 1 of the edge list: each edge's target. -/
def row1 (e : Vec F S2x800000 .i32) : Vec F S800000 .i32 :=
  shapeCast _ (extractStridedSlice S1x800000 ![1, 0] e slices_S2x800000_S1x800000_1_0) shapeCasts_S1x800000_S800000

/-- 800000 edge ends, then the nodes 0 … 49999 (one self loop per node). -/
def withLoops (r : Vec F S800000 .i32) : Vec F S850000 .i32 :=
  concatenate S850000 0 [⟨S800000, r⟩, ⟨S50000, iotaInDim S50000 32 0⟩] concatenates_S800000_S50000_S850000_d0

/-- The sources, self loops included. -/
def srcs (e : Vec F S2x800000 .i32) : Vec F S850000 .i32 := withLoops (row0 e)

/-- The targets, self loops included. -/
def dsts (e : Vec F S2x800000 .i32) : Vec F S850000 .i32 := withLoops (row1 e)

/-- A list of node numbers as the one-column index list a gather or scatter takes, a negative number counted from the end. -/
def column (v : Vec F S850000 .i32) : Vec F S850000x1 .i32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The number of listed edges that end at each node, from the target list. -/
def degreeOf (d : Vec F S850000 .i32) : Vec F S50000 .f32 :=
  Host.scatterAdd scatter_S50000_S850000x1_S850000_n_0_0_1
    (broadcastInDim S50000 ![] bcast_S_S50000 (constant (F := F) S_ .f32 0x00000000#32))
    (column d)
    (broadcastInDim S850000 ![] bcast_S_S850000 (constant (F := F) S_ .f32 0x3F800000#32))

/-- An edge's weight, from the source and target lists: rsqrt of its source's degree times rsqrt of its target's. -/
def weightOf (s d : Vec F S850000 .i32) : Vec F S850000 .f32 :=
  mulf (Host.gather gather_S50000_S850000x1_S850000_n_0_n_n_0_1_1 (Host.rsqrt (degreeOf d)) (column s))
    (Host.gather gather_S50000_S850000x1_S850000_n_0_n_n_0_1_1 (Host.rsqrt (degreeOf d)) (column d))

/-- The edge weights of an edge list. -/
def weight (e : Vec F S2x800000 .i32) : Vec F S850000 .f32 := weightOf (srcs e) (dsts e)

/-- The first layer after its product xw, before the maximum with zero, over given lists: weighted source rows
    summed at each edge's target, plus the bias. -/
def preOf (xw : Vec F S50000x128 .f32) (s d : Vec F S850000 .i32) (w : Vec F S850000 .f32) (b : Vec F S128 .f32) :
    Vec F S50000x128 .f32 :=
  addf
    (Host.scatterAdd scatter_S50000x128_S850000x1_S850000x128_1_0_0_1
      (broadcastInDim S50000x128 ![] bcast_S_S50000x128 (constant (F := F) S_ .f32 0x00000000#32))
      (broadcastInDim S850000x1 ![0] bcast_S850000_S850000x1_0 d)
      (mulf (Host.gather gather_S50000x128_S850000x1_S850000x128_1_0_n_n_0_1_1128 xw (column s))
        (broadcastInDim S850000x128 ![0, 1] bcast_S850000x1_S850000x128_0_1
          (broadcastInDim S850000x1 ![0] bcast_S850000_S850000x1_0 w))))
    (broadcastInDim S50000x128 ![0, 1] bcast_S1x128_S50000x128_0_1 (broadcastInDim S1x128 ![1] bcast_S128_S1x128_1 b))

/-- The maximum with zero, entry by entry. -/
def relu (z : Vec F S50000x128 .f32) : Vec F S50000x128 .f32 :=
  maximumf z (broadcastInDim S50000x128 ![] bcast_S_S50000x128 (constant (F := F) S_ .f32 0x00000000#32))

/-- The first layer after its product xw, over given lists. -/
def hiddenOf (xw : Vec F S50000x128 .f32) (s d : Vec F S850000 .i32) (w : Vec F S850000 .f32) (b : Vec F S128 .f32) :
    Vec F S50000x128 .f32 :=
  relu (preOf xw s d w b)

/-- The first layer after its product, over the edge list. -/
def hidden (xw : Vec F S50000x128 .f32) (e : Vec F S2x800000 .i32) (b : Vec F S128 .f32) : Vec F S50000x128 .f32 :=
  hiddenOf xw (srcs e) (dsts e) (weight e) b

/-- The second layer after its product xw, before the softmax, over given lists. -/
def logitsOf (xw : Vec F S50000x40 .f32) (s d : Vec F S850000 .i32) (w : Vec F S850000 .f32) (b : Vec F S40 .f32) :
    Vec F S50000x40 .f32 :=
  addf
    (Host.scatterAdd scatter_S50000x40_S850000x1_S850000x40_1_0_0_1
      (broadcastInDim S50000x40 ![] bcast_S_S50000x40 (constant (F := F) S_ .f32 0x00000000#32))
      (broadcastInDim S850000x1 ![0] bcast_S850000_S850000x1_0 d)
      (mulf (Host.gather gather_S50000x40_S850000x1_S850000x40_1_0_n_n_0_1_140 xw (column s))
        (broadcastInDim S850000x40 ![0, 1] bcast_S850000x1_S850000x40_0_1
          (broadcastInDim S850000x1 ![0] bcast_S850000_S850000x1_0 w))))
    (broadcastInDim S50000x40 ![0, 1] bcast_S1x40_S50000x40_0_1 (broadcastInDim S1x40 ![1] bcast_S40_S1x40_1 b))

/-- The second layer after its product, before the softmax, over the edge list. -/
def logits (xw : Vec F S50000x40 .f32) (e : Vec F S2x800000 .i32) (b : Vec F S40 .f32) : Vec F S50000x40 .f32 :=
  logitsOf xw (srcs e) (dsts e) (weight e) b

/-- A [50000, 40] array minus each row's maximum. -/
def shifted (z : Vec F S50000x40 .f32) : Vec F S50000x40 .f32 :=
  subf z
    (broadcastInDim S50000x40 ![0, 1] bcast_S50000x1_S50000x40_0_1
      (broadcastInDim S50000x1 ![0] bcast_S50000_S50000x1_0
        (maximumf (broadcastInDim S50000 ![] bcast_S_S50000 (constant (F := F) S_ .f32 0xFF800000#32))
          (Host.reduce FloatOps.maximumf z (constant (F := F) S_ .f32 0xFF800000#32) reducesTo_S50000x40_S50000_d1 h_S_))))

/-- The logarithm of the softmax of each row. -/
def logSoftmax (z : Vec F S50000x40 .f32) : Vec F S50000x40 .f32 :=
  subf (shifted z)
    (broadcastInDim S50000x40 ![0, 1] bcast_S50000x1_S50000x40_0_1
      (Host.log
        (broadcastInDim S50000x1 ![0] bcast_S50000_S50000x1_0
          (Host.reduceAdd (Host.exp (shifted z)) (constant (F := F) S_ .f32 0x00000000#32) reducesTo_S50000x40_S50000_d1 h_S_))))

end Cert.ReferenceIdeal.Stages

end
-- ==== Proof.RefStretches.lean ====
/-
  The reference program's 134 host operations in six stretches, each read over ANY contents `W` of the buffers
  before it.

  The first stretch (41 operations) makes the first dense product, the two rows of the edge list, the edge lists with
  self loops and the edge weights; the second (19) the first layer's aggregation and bias, the third (3) its maximum
  with zero; the fourth (37) the second dense product and, again from the two rows, the edge lists and weights; the
  fifth (19) the second layer's aggregation and bias, the sixth (15) the log-softmax. The six lists are the program's
  operation list cut at those places, in order. Stated over a variable `W`, each read is a small equation between
  the stretch's own operations and the layer functions.
-/
import proofs.«109161_j51513837748925_1_alg».proof.Proof.RefRun
import proofs.«109161_j51513837748925_1_alg».proof.Proof.StagesR
import proofs.«109161_j51513837748925_1_alg».proof.Proof.LibHostReads
import proofs.«109161_j51513837748925_1_alg».proof.Proof.LibTRefCasts
import Idealize.ShloMosaic.Lib.StableHlo.Run
import Idealize.ShloMosaic.PureOps.Ideal

set_option maxRecDepth 16384

noncomputable section

namespace Cert.ReferenceIdeal.Stretches

open Cert.ReferenceIdeal Cert.ReferenceIdeal.Gen Idealize.ShloMosaic Idealize.ShloMosaic.TcCoe Idealize.SL.Sem Idealize.ShloMosaic.StableHlo
open Cert.ReferenceIdeal.Stages Cert.LibHostReads Cert.LibTRefCasts

section Lists

variable {F : FTy → Type} [FloatOps F]

/-- Operations 1 … 41: the first product, the edge lists and the edge weights. -/
abbrev seg1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x00000000#32),
    unary main_cst main_v8 (broadcastInDim S50000 ![] bcast_S_S50000 : (⟨S_, .f32⟩ : BufTy).Contents (Elt F) → (⟨S50000, .f32⟩ : BufTy).Contents (Elt F)),
    nullary main_c (constantI S_ 32 0#32),
    unary main_c main_v9 (broadcastInDim S850000 ![] bcast_S_S850000 : (⟨S_, .i32⟩ : BufTy).Contents (Elt F) → (⟨S850000, .i32⟩ : BufTy).Contents (Elt F)),
    binary main_v7 main_v9 main_v10 (cmpi .slt : (⟨S850000, .i32⟩ : BufTy).Contents (Elt F) → (⟨S850000, .i32⟩ : BufTy).Contents (Elt F) → (⟨S850000, .i1⟩ : BufTy).Contents (Elt F)),
    nullary main_c_0 (constantI S_ 32 50000#32),
    unary main_c_0 main_v11 (broadcastInDim S850000 ![] bcast_S_S850000 : (⟨S_, .i32⟩ : BufTy).Contents (Elt F) → (⟨S850000, .i32⟩ : BufTy).Contents (Elt F)),
    binary main_v7 main_v11 main_v12 (addi : (⟨S850000, .i32⟩ : BufTy).Contents (Elt F) → (⟨S850000, .i32⟩ : BufTy).Contents (Elt F) → (⟨S850000, .i32⟩ : BufTy).Contents (Elt F)),
    ternary main_v10 main_v12 main_v7 main_v13 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v13 main_v14 (broadcastInDim S850000x1 ![0] bcast_S850000_S850000x1_0 : (⟨S850000, .i32⟩ : BufTy).Contents (Elt F) → (⟨S850000x1, .i32⟩ : BufTy).Contents (Elt F)),
    nullary main_cst_1 (constant S_ .f32 0x3F800000#32),
    unary main_cst_1 main_v15 (broadcastInDim S850000 ![] bcast_S_S850000 : (⟨S_, .f32⟩ : BufTy).Contents (Elt F) → (⟨S850000, .f32⟩ : BufTy).Contents (Elt F)),
    ternary main_v8 main_v14 main_v15 main_v16 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    unary main_v16 main_v17 (Host.rsqrt : (⟨S50000, .f32⟩ : BufTy).Contents (Elt F) → (⟨S50000, .f32⟩ : BufTy).Contents (Elt F)),
    nullary main_c_2 (constantI S_ 32 0#32),
    unary main_c_2 main_v18 (broadcastInDim S850000 ![] bcast_S_S850000 : (⟨S_, .i32⟩ : BufTy).Contents (Elt F) → (⟨S850000, .i32⟩ : BufTy).Contents (Elt F)),
    binary main_v6 main_v18 main_v19 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v20 (broadcastInDim S850000 ![] bcast_S_S850000 : (⟨S_, .i32⟩ : BufTy).Contents (Elt F) → (⟨S850000, .i32⟩ : BufTy).Contents (Elt F)),
    binary main_v6 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v6 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v25 (broadcastInDim S850000 ![] bcast_S_S850000 : (⟨S_, .i32⟩ : BufTy).Contents (Elt F) → (⟨S850000, .i32⟩ : BufTy).Contents (Elt F)),
    binary main_v7 main_v25 main_v26 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v27 (broadcastInDim S850000 ![] bcast_S_S850000 : (⟨S_, .i32⟩ : BufTy).Contents (Elt F) → (⟨S850000, .i32⟩ : BufTy).Contents (Elt F)),
    binary main_v7 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v7 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)) ]

/-- Operations 42 … 60: the first layer's aggregation and bias. -/
abbrev seg2 : List (HloOp τ sig (Elt F)) :=
  [ nullary main_c_6 (constantI S_ 32 0#32),
    unary main_c_6 main_v33 (broadcastInDim S850000 ![] bcast_S_S850000 : (⟨S_, .i32⟩ : BufTy).Contents (Elt F) → (⟨S850000, .i32⟩ : BufTy).Contents (Elt F)),
    binary main_v6 main_v33 main_v34 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v35 (broadcastInDim S850000 ![] bcast_S_S850000 : (⟨S_, .i32⟩ : BufTy).Contents (Elt F) → (⟨S850000, .i32⟩ : BufTy).Contents (Elt F)),
    binary main_v6 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v6 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v4 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v43 (broadcastInDim S50000x128 ![] bcast_S_S50000x128 : (⟨S_, .f32⟩ : BufTy).Contents (Elt F) → (⟨S50000x128, .f32⟩ : BufTy).Contents (Elt F)),
    unary main_v7 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)) ]

/-- Operations 61 … 63: the maximum with zero. -/
abbrev seg3 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v48) (TRef.of (T := ⟨S50000x128, .f32⟩) main_call0_v0) (TRef.of (T := ⟨S50000x128, .f32⟩) main_v49) maximumf ]

/-- Operations 64 … 100: the second product, and the edge lists and weights again. -/
abbrev seg4 : List (HloOp τ sig (Elt F)) :=
  [ binary main_v49 main_arg4 main_v50 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_v51 (iotaInDim S50000 32 0),
    binary main_v1 main_v51 main_v52 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v51 main_v53 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x00000000#32),
    unary main_cst_9 main_v54 (broadcastInDim S50000 ![] bcast_S_S50000 : (⟨S_, .f32⟩ : BufTy).Contents (Elt F) → (⟨S50000, .f32⟩ : BufTy).Contents (Elt F)),
    nullary main_c_10 (constantI S_ 32 0#32),
    unary main_c_10 main_v55 (broadcastInDim S850000 ![] bcast_S_S850000 : (⟨S_, .i32⟩ : BufTy).Contents (Elt F) → (⟨S850000, .i32⟩ : BufTy).Contents (Elt F)),
    binary main_v53 main_v55 main_v56 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v57 (broadcastInDim S850000 ![] bcast_S_S850000 : (⟨S_, .i32⟩ : BufTy).Contents (Elt F) → (⟨S850000, .i32⟩ : BufTy).Contents (Elt F)),
    binary main_v53 main_v57 main_v58 (addi : (⟨S850000, .i32⟩ : BufTy).Contents (Elt F) → (⟨S850000, .i32⟩ : BufTy).Contents (Elt F) → (⟨S850000, .i32⟩ : BufTy).Contents (Elt F)),
    ternary main_v56 main_v58 main_v53 main_v59 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v59 main_v60 (broadcastInDim S850000x1 ![0] bcast_S850000_S850000x1_0 : (⟨S850000, .i32⟩ : BufTy).Contents (Elt F) → (⟨S850000x1, .i32⟩ : BufTy).Contents (Elt F)),
    nullary main_cst_12 (constant S_ .f32 0x3F800000#32),
    unary main_cst_12 main_v61 (broadcastInDim S850000 ![] bcast_S_S850000 : (⟨S_, .f32⟩ : BufTy).Contents (Elt F) → (⟨S850000, .f32⟩ : BufTy).Contents (Elt F)),
    ternary main_v54 main_v60 main_v61 main_v62 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    unary main_v62 main_v63 (Host.rsqrt : (⟨S50000, .f32⟩ : BufTy).Contents (Elt F) → (⟨S50000, .f32⟩ : BufTy).Contents (Elt F)),
    nullary main_c_13 (constantI S_ 32 0#32),
    unary main_c_13 main_v64 (broadcastInDim S850000 ![] bcast_S_S850000 : (⟨S_, .i32⟩ : BufTy).Contents (Elt F) → (⟨S850000, .i32⟩ : BufTy).Contents (Elt F)),
    binary main_v52 main_v64 main_v65 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v66 (broadcastInDim S850000 ![] bcast_S_S850000 : (⟨S_, .i32⟩ : BufTy).Contents (Elt F) → (⟨S850000, .i32⟩ : BufTy).Contents (Elt F)),
    binary main_v52 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v52 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v63 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v71 (broadcastInDim S850000 ![] bcast_S_S850000 : (⟨S_, .i32⟩ : BufTy).Contents (Elt F) → (⟨S850000, .i32⟩ : BufTy).Contents (Elt F)),
    binary main_v53 main_v71 main_v72 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v73 (broadcastInDim S850000 ![] bcast_S_S850000 : (⟨S_, .i32⟩ : BufTy).Contents (Elt F) → (⟨S850000, .i32⟩ : BufTy).Contents (Elt F)),
    binary main_v53 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v53 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    binary main_v63 main_v76 main_v77 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v70 main_v77 main_v78 (mulf : (⟨S850000, .f32⟩ : BufTy).Contents (Elt F) → (⟨S850000, .f32⟩ : BufTy).Contents (Elt F) → (⟨S850000, .f32⟩ : BufTy).Contents (Elt F)) ]

/-- Operations 101 … 119: the second layer's aggregation and bias. -/
abbrev seg5 : List (HloOp τ sig (Elt F)) :=
  [ nullary main_c_17 (constantI S_ 32 0#32),
    unary main_c_17 main_v79 (broadcastInDim S850000 ![] bcast_S_S850000 : (⟨S_, .i32⟩ : BufTy).Contents (Elt F) → (⟨S850000, .i32⟩ : BufTy).Contents (Elt F)),
    binary main_v52 main_v79 main_v80 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v81 (broadcastInDim S850000 ![] bcast_S_S850000 : (⟨S_, .i32⟩ : BufTy).Contents (Elt F) → (⟨S850000, .i32⟩ : BufTy).Contents (Elt F)),
    binary main_v52 main_v81 main_v82 (addi : (⟨S850000, .i32⟩ : BufTy).Contents (Elt F) → (⟨S850000, .i32⟩ : BufTy).Contents (Elt F) → (⟨S850000, .i32⟩ : BufTy).Contents (Elt F)),
    ternary main_v80 main_v82 main_v52 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v83 main_v84 (broadcastInDim S850000x1 ![0] bcast_S850000_S850000x1_0 : (⟨S850000, .i32⟩ : BufTy).Contents (Elt F) → (⟨S850000x1, .i32⟩ : BufTy).Contents (Elt F)),
    binary main_v50 main_v84 main_v85 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v78 main_v86 (broadcastInDim S850000x1 ![0] bcast_S850000_S850000x1_0 : (⟨S850000, .f32⟩ : BufTy).Contents (Elt F) → (⟨S850000x1, .f32⟩ : BufTy).Contents (Elt F)),
    unary main_v86 main_v87 (broadcastInDim S850000x40 ![0, 1] bcast_S850000x1_S850000x40_0_1 : (⟨S850000x1, .f32⟩ : BufTy).Contents (Elt F) → (⟨S850000x40, .f32⟩ : BufTy).Contents (Elt F)),
    binary main_v85 main_v87 main_v88 (mulf : (⟨S850000x40, .f32⟩ : BufTy).Contents (Elt F) → (⟨S850000x40, .f32⟩ : BufTy).Contents (Elt F) → (⟨S850000x40, .f32⟩ : BufTy).Contents (Elt F)),
    nullary main_cst_19 (constant S_ .f32 0x00000000#32),
    unary main_cst_19 main_v89 (broadcastInDim S50000x40 ![] bcast_S_S50000x40 : (⟨S_, .f32⟩ : BufTy).Contents (Elt F) → (⟨S50000x40, .f32⟩ : BufTy).Contents (Elt F)),
    unary main_v53 main_v90 (broadcastInDim S850000x1 ![0] bcast_S850000_S850000x1_0 : (⟨S850000, .i32⟩ : BufTy).Contents (Elt F) → (⟨S850000x1, .i32⟩ : BufTy).Contents (Elt F)),
    ternary main_v89 main_v90 main_v88 main_v91 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S50000x40 ![0, 1] bcast_S1x40_S50000x40_0_1 : (⟨S1x40, .f32⟩ : BufTy).Contents (Elt F) → (⟨S50000x40, .f32⟩ : BufTy).Contents (Elt F)),
    binary main_v91 main_v93 main_v94 (addf : (⟨S50000x40, .f32⟩ : BufTy).Contents (Elt F) → (⟨S50000x40, .f32⟩ : BufTy).Contents (Elt F) → (⟨S50000x40, .f32⟩ : BufTy).Contents (Elt F)) ]

/-- Operations 120 … 134: the log-softmax. -/
abbrev seg6 : List (HloOp τ sig (Elt F)) :=
  [ TRef.nullary (TRef.of (T := ⟨S_, .f32⟩) main_call1_cst) (constant S_ .f32 0xFF800000#32),
    TRef.binary (TRef.of (T := ⟨S50000x40, .f32⟩) main_v94) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v94) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v95) subf ]

/-- The program's operation list is the six stretches in order. -/
theorem ops_split : (Cert.ReferenceIdeal.ValueP.ops (F := F)) = seg1 ++ (seg2 ++ (seg3 ++ (seg4 ++ (seg5 ++ seg6)))) := rfl

/-- The contents after two lists of operations in a row. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The contents after the whole program, stretch by stretch. -/
theorem after_ops (V : Valuation τ sig (Elt F)) :
    StableHlo.after Cert.ReferenceIdeal.ValueP.ops V
      = StableHlo.after seg6 (StableHlo.after seg5 (StableHlo.after seg4 (StableHlo.after seg3 (StableHlo.after seg2 (StableHlo.after seg1 V))))) := by
  rw [ops_split, after_append, after_append, after_append, after_append, after_append]

end Lists

variable (W : Valuation τ sig (Elt Ideal))

/-! ## The first stretch -/

theorem xw_eq : StableHlo.after seg1 W (Proc.devRef .tc main_v4)
    = Host.dotGeneral (F := Ideal) (φ₁ := .f32) (φ₂ := .f32) dot_S50000x256_S256x128_S50000x128_1_0_0_1_n_n none ((W (Proc.devRef .tc main_arg0)) : FVec Ideal S50000x256 .f32) ((W (Proc.devRef .tc main_arg2)) : FVec Ideal S256x128 .f32) := by
  simp only [seg1]; after_results_simp

theorem row0_eq : StableHlo.after seg1 W (Proc.devRef .tc main_v1) = row0 (W (Proc.devRef .tc main_arg1)) := by
  simp only [seg1]; after_results_simp; host_reads
  rfl

theorem row1_eq : StableHlo.after seg1 W (Proc.devRef .tc main_v3) = row1 (W (Proc.devRef .tc main_arg1)) := by
  simp only [seg1]; after_results_simp; host_reads
  rfl

theorem srcs_eq : StableHlo.after seg1 W (Proc.devRef .tc main_v6) = srcs (W (Proc.devRef .tc main_arg1)) := by
  simp only [seg1]; after_results_simp; host_reads
  rfl

theorem dsts_eq : StableHlo.after seg1 W (Proc.devRef .tc main_v7) = dsts (W (Proc.devRef .tc main_arg1)) := by
  simp only [seg1]; after_results_simp; host_reads
  rfl

theorem weight_eq : StableHlo.after seg1 W (Proc.devRef .tc main_v32) = weight (W (Proc.devRef .tc main_arg1)) := by
  simp only [seg1]; after_results_simp; host_reads
  rfl

/-! ## The second and third stretches -/

theorem pre_eq : StableHlo.after seg2 W (Proc.devRef .tc main_v48)
    = preOf (W (Proc.devRef .tc main_v4)) (W (Proc.devRef .tc main_v6)) (W (Proc.devRef .tc main_v7)) (W (Proc.devRef .tc main_v32)) (W (Proc.devRef .tc main_arg3)) := by
  simp only [seg2]; after_results_simp
  rfl

/-- At the buffers the two called functions read and write, the buffer's type is the tensor value's: contents pass
    through the typed reference unchanged. -/
theorem toBuf_v49 (h1 : main_v49.ty = ⟨S50000x128, .f32⟩) (h2 : main_v49.space ≠ .host) (h3 : main_v49.isScoped = false)
    (v : Vec Ideal S50000x128 .f32) : (TRef.of (sig := sig) (T := ⟨S50000x128, .f32⟩) main_v49 h1 h2 h3).toBuf (Val := Elt Ideal) v = v := rfl
theorem ofBuf_v48 (h1 : main_v48.ty = ⟨S50000x128, .f32⟩) (h2 : main_v48.space ≠ .host) (h3 : main_v48.isScoped = false)
    (v : Vec Ideal S50000x128 .f32) : (TRef.of (sig := sig) (T := ⟨S50000x128, .f32⟩) main_v48 h1 h2 h3).ofBuf (Val := Elt Ideal) v = v := rfl
theorem toBuf_v95 (h1 : main_v95.ty = ⟨S50000x40, .f32⟩) (h2 : main_v95.space ≠ .host) (h3 : main_v95.isScoped = false)
    (v : Vec Ideal S50000x40 .f32) : (TRef.of (sig := sig) (T := ⟨S50000x40, .f32⟩) main_v95 h1 h2 h3).toBuf (Val := Elt Ideal) v = v := rfl
theorem ofBuf_v94 (h1 : main_v94.ty = ⟨S50000x40, .f32⟩) (h2 : main_v94.space ≠ .host) (h3 : main_v94.isScoped = false)
    (v : Vec Ideal S50000x40 .f32) : (TRef.of (sig := sig) (T := ⟨S50000x40, .f32⟩) main_v94 h1 h2 h3).ofBuf (Val := Elt Ideal) v = v := rfl

theorem relu_eq : StableHlo.after seg3 W (Proc.devRef .tc main_v49) = relu (W (Proc.devRef .tc main_v48)) := by
  simp only [seg3]; after_results_simp
  simp only [ofBuf_toBuf]
  rw [toBuf_v49, ofBuf_v48]
  rfl

/-! ## The fourth stretch -/

theorem xw2_eq : StableHlo.after seg4 W (Proc.devRef .tc main_v50)
    = Host.dotGeneral (F := Ideal) (φ₁ := .f32) (φ₂ := .f32) dot_S50000x128_S128x40_S50000x40_1_0_0_1_n_n none ((W (Proc.devRef .tc main_v49)) : FVec Ideal S50000x128 .f32) ((W (Proc.devRef .tc main_arg4)) : FVec Ideal S128x40 .f32) := by
  simp only [seg4]; after_results_simp

theorem srcs2_eq : StableHlo.after seg4 W (Proc.devRef .tc main_v52) = withLoops (W (Proc.devRef .tc main_v1)) := by
  simp only [seg4]; after_results_simp; host_reads
  rfl

theorem dsts2_eq : StableHlo.after seg4 W (Proc.devRef .tc main_v53) = withLoops (W (Proc.devRef .tc main_v3)) := by
  simp only [seg4]; after_results_simp; host_reads
  rfl

theorem weight2_eq : StableHlo.after seg4 W (Proc.devRef .tc main_v78) = weightOf (withLoops (W (Proc.devRef .tc main_v1))) (withLoops (W (Proc.devRef .tc main_v3))) := by
  simp only [seg4]; after_results_simp; host_reads
  rfl

/-! ## The fifth and sixth stretches -/

theorem logits_eq : StableHlo.after seg5 W (Proc.devRef .tc main_v94)
    = logitsOf (W (Proc.devRef .tc main_v50)) (W (Proc.devRef .tc main_v52)) (W (Proc.devRef .tc main_v53)) (W (Proc.devRef .tc main_v78)) (W (Proc.devRef .tc main_arg5)) := by
  simp only [seg5]; after_results_simp
  rfl

theorem logSoftmax_eq : StableHlo.after seg6 W (Proc.devRef .tc main_v95) = logSoftmax (W (Proc.devRef .tc main_v94)) := by
  simp only [seg6]; after_results_simp
  simp only [ofBuf_toBuf]
  rw [toBuf_v95, ofBuf_v94]
  rfl

end Cert.ReferenceIdeal.Stretches

end
-- ==== Proof.RefValue.lean ====
/-
  What the reference's result buffer holds: the same layers over the host's own dense products.

  The reference's run leaves each buffer at the fold of its 134 operations over the launch contents; read stretch by
  stretch, the result buffer is the log-softmax of the second layer's logits over the host's `dot_general` products.
  Over the extended reals each such product is the product entry by entry, so the result is the same function of the
  six arguments as the other program's. (The reference recomputes the edge lists and weights for its second layer;
  they are the same terms of the edge list.)
-/
import proofs.«109161_j51513837748925_1_alg».proof.Proof.RefRun
import proofs.«109161_j51513837748925_1_alg».proof.Proof.RefStretches
import proofs.«109161_j51513837748925_1_alg».proof.Proof.StagesR
import proofs.«109161_j51513837748925_1_alg».proof.Proof.MatProd
import proofs.«109161_j51513837748925_1_alg».proof.Proof.LibKeeps

set_option maxRecDepth 16384

noncomputable section

namespace Cert.ReferenceIdeal.RefValue

open Idealize.ShloMosaic Idealize.ShloMosaic.TcCoe Idealize.ShloMosaic.StableHlo Idealize.SL.Sem
open Cert.ReferenceIdeal Cert.ReferenceIdeal.Gen Cert.ReferenceIdeal.Stages Cert.ReferenceIdeal.Stretches Cert.MatProd Cert.LibPlainDot

theorem plain1 : Plain dot_S50000x256_S256x128_S50000x128_1_0_0_1_n_n := ⟨rfl, rfl, rfl, rfl, rfl, rfl⟩
theorem plain2 : Plain dot_S50000x128_S128x40_S50000x40_1_0_0_1_n_n := ⟨rfl, rfl, rfl, rfl, rfl, rfl⟩

variable (m : (ℓ : Loc nD τ sig) → Buf (Elt Ideal) ℓ) (c : Dev nD)

/-- The buffers' contents at launch, … -/
abbrev U0 : Valuation τ sig (Elt Ideal) := launchContents m c
/-- … after the first stretch, … -/
def U1 : Valuation τ sig (Elt Ideal) := StableHlo.after seg1 (U0 m c)
/-- … after the third (the hidden layer made), … -/
def U2 : Valuation τ sig (Elt Ideal) := StableHlo.after seg3 (StableHlo.after seg2 (U1 m c))
/-- … and after the fourth. -/
def U3 : Valuation τ sig (Elt Ideal) := StableHlo.after seg4 (U2 m c)

/-- The contents after the whole program are the last two stretches' over the fourth's. -/
theorem after_ops_eq : StableHlo.after Cert.ReferenceIdeal.ValueP.ops (launchContents m c)
    = StableHlo.after seg6 (StableHlo.after seg5 (U3 m c)) :=
  after_ops (launchContents m c)

/-! ## After the first stretch -/

theorem U1_arg0 : U1 m c (Proc.devRef .tc main_arg0) = m ((c.tc : Thread nD τ).loc main_arg0) :=
  (show StableHlo.after seg1 (U0 m c) (Proc.devRef .tc main_arg0) = U0 m c (Proc.devRef .tc main_arg0) by keeps_host seg1).trans rfl

theorem U1_arg1 : U1 m c (Proc.devRef .tc main_arg1) = m ((c.tc : Thread nD τ).loc main_arg1) :=
  (show StableHlo.after seg1 (U0 m c) (Proc.devRef .tc main_arg1) = U0 m c (Proc.devRef .tc main_arg1) by keeps_host seg1).trans rfl

theorem U1_arg2 : U1 m c (Proc.devRef .tc main_arg2) = m ((c.tc : Thread nD τ).loc main_arg2) :=
  (show StableHlo.after seg1 (U0 m c) (Proc.devRef .tc main_arg2) = U0 m c (Proc.devRef .tc main_arg2) by keeps_host seg1).trans rfl

theorem U1_arg3 : U1 m c (Proc.devRef .tc main_arg3) = m ((c.tc : Thread nD τ).loc main_arg3) :=
  (show StableHlo.after seg1 (U0 m c) (Proc.devRef .tc main_arg3) = U0 m c (Proc.devRef .tc main_arg3) by keeps_host seg1).trans rfl

theorem U1_arg4 : U1 m c (Proc.devRef .tc main_arg4) = m ((c.tc : Thread nD τ).loc main_arg4) :=
  (show StableHlo.after seg1 (U0 m c) (Proc.devRef .tc main_arg4) = U0 m c (Proc.devRef .tc main_arg4) by keeps_host seg1).trans rfl

theorem U1_arg5 : U1 m c (Proc.devRef .tc main_arg5) = m ((c.tc : Thread nD τ).loc main_arg5) :=
  (show StableHlo.after seg1 (U0 m c) (Proc.devRef .tc main_arg5) = U0 m c (Proc.devRef .tc main_arg5) by keeps_host seg1).trans rfl

theorem U1_xw : U1 m c (Proc.devRef .tc main_v4) = prod (m ((c.tc : Thread nD τ).loc main_arg0)) (m ((c.tc : Thread nD τ).loc main_arg2)) :=
  (xw_eq (U0 m c)).trans (dotGeneral_eq_prod plain1 none _ _)

theorem U1_row0 : U1 m c (Proc.devRef .tc main_v1) = row0 (m ((c.tc : Thread nD τ).loc main_arg1)) := row0_eq (U0 m c)
theorem U1_row1 : U1 m c (Proc.devRef .tc main_v3) = row1 (m ((c.tc : Thread nD τ).loc main_arg1)) := row1_eq (U0 m c)
theorem U1_srcs : U1 m c (Proc.devRef .tc main_v6) = srcs (m ((c.tc : Thread nD τ).loc main_arg1)) := srcs_eq (U0 m c)
theorem U1_dsts : U1 m c (Proc.devRef .tc main_v7) = dsts (m ((c.tc : Thread nD τ).loc main_arg1)) := dsts_eq (U0 m c)
theorem U1_weight : U1 m c (Proc.devRef .tc main_v32) = weight (m ((c.tc : Thread nD τ).loc main_arg1)) := weight_eq (U0 m c)

/-! ## After the second and third stretches -/

theorem U2_hidden : U2 m c (Proc.devRef .tc main_v49) = hidden (prod (m ((c.tc : Thread nD τ).loc main_arg0)) (m ((c.tc : Thread nD τ).loc main_arg2))) (m ((c.tc : Thread nD τ).loc main_arg1)) (m ((c.tc : Thread nD τ).loc main_arg3)) := by
  refine ((relu_eq (StableHlo.after seg2 (U1 m c))).trans (congrArg relu (pre_eq (U1 m c)))).trans ?_
  rw [U1_xw, U1_srcs, U1_dsts, U1_weight, U1_arg3]
  rfl

theorem U2_row0 : U2 m c (Proc.devRef .tc main_v1) = row0 (m ((c.tc : Thread nD τ).loc main_arg1)) :=
  (show StableHlo.after seg3 (StableHlo.after seg2 (U1 m c)) (Proc.devRef .tc main_v1) = StableHlo.after seg2 (U1 m c) (Proc.devRef .tc main_v1) by keeps_host seg3).trans
    ((show StableHlo.after seg2 (U1 m c) (Proc.devRef .tc main_v1) = U1 m c (Proc.devRef .tc main_v1) by keeps_host seg2).trans (U1_row0 m c))

theorem U2_row1 : U2 m c (Proc.devRef .tc main_v3) = row1 (m ((c.tc : Thread nD τ).loc main_arg1)) :=
  (show StableHlo.after seg3 (StableHlo.after seg2 (U1 m c)) (Proc.devRef .tc main_v3) = StableHlo.after seg2 (U1 m c) (Proc.devRef .tc main_v3) by keeps_host seg3).trans
    ((show StableHlo.after seg2 (U1 m c) (Proc.devRef .tc main_v3) = U1 m c (Proc.devRef .tc main_v3) by keeps_host seg2).trans (U1_row1 m c))

theorem U2_arg4 : U2 m c (Proc.devRef .tc main_arg4) = m ((c.tc : Thread nD τ).loc main_arg4) :=
  (show StableHlo.after seg3 (StableHlo.after seg2 (U1 m c)) (Proc.devRef .tc main_arg4) = StableHlo.after seg2 (U1 m c) (Proc.devRef .tc main_arg4) by keeps_host seg3).trans
    ((show StableHlo.after seg2 (U1 m c) (Proc.devRef .tc main_arg4) = U1 m c (Proc.devRef .tc main_arg4) by keeps_host seg2).trans (U1_arg4 m c))

theorem U2_arg5 : U2 m c (Proc.devRef .tc main_arg5) = m ((c.tc : Thread nD τ).loc main_arg5) :=
  (show StableHlo.after seg3 (StableHlo.after seg2 (U1 m c)) (Proc.devRef .tc main_arg5) = StableHlo.after seg2 (U1 m c) (Proc.devRef .tc main_arg5) by keeps_host seg3).trans
    ((show StableHlo.after seg2 (U1 m c) (Proc.devRef .tc main_arg5) = U1 m c (Proc.devRef .tc main_arg5) by keeps_host seg2).trans (U1_arg5 m c))

/-! ## After the fourth stretch -/

theorem U3_xw : U3 m c (Proc.devRef .tc main_v50)
    = prod (hidden (prod (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4)) := by
  refine (xw2_eq (U2 m c)).trans ?_
  rw [U2_hidden, U2_arg4]
  exact dotGeneral_eq_prod plain2 none _ _

theorem U3_srcs : U3 m c (Proc.devRef .tc main_v52) = srcs (m ((c.tc : Thread nD τ).loc main_arg1)) := by
  refine (srcs2_eq (U2 m c)).trans ?_
  rw [U2_row0]; rfl

theorem U3_dsts : U3 m c (Proc.devRef .tc main_v53) = dsts (m ((c.tc : Thread nD τ).loc main_arg1)) := by
  refine (dsts2_eq (U2 m c)).trans ?_
  rw [U2_row1]; rfl

theorem U3_weight : U3 m c (Proc.devRef .tc main_v78) = weight (m ((c.tc : Thread nD τ).loc main_arg1)) := by
  refine (weight2_eq (U2 m c)).trans ?_
  rw [U2_row0, U2_row1]; rfl

theorem U3_arg5 : U3 m c (Proc.devRef .tc main_arg5) = m ((c.tc : Thread nD τ).loc main_arg5) :=
  (show StableHlo.after seg4 (U2 m c) (Proc.devRef .tc main_arg5) = U2 m c (Proc.devRef .tc main_arg5) by keeps_host seg4).trans (U2_arg5 m c)

/-! ## After the last two stretches: the result -/

/-- The result as one function of the six argument arrays. -/
def result (x : Vec Ideal S50000x256 .f32) (e : Vec Ideal S2x800000 .i32) (w1 : Vec Ideal S256x128 .f32) (b1 : Vec Ideal S128 .f32)
    (w2 : Vec Ideal S128x40 .f32) (b2 : Vec Ideal S40 .f32) : Vec Ideal S50000x40 .f32 :=
  logSoftmax (logits (prod (hidden (prod x w1) e b1) w2) e b2)

/-- The fold of the program's operations over the launch contents, read at the result buffer. -/
theorem fold_result : StableHlo.after Cert.ReferenceIdeal.ValueP.ops (launchContents m c) (Proc.devRef .tc main_v95)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops_eq]
  refine ((logSoftmax_eq (StableHlo.after seg5 (U3 m c))).trans (congrArg logSoftmax (logits_eq (U3 m c)))).trans ?_
  rw [U3_xw, U3_srcs, U3_dsts, U3_weight, U3_arg5]
  rfl

/-- The fold read at an argument's buffer: no operation writes it. -/
theorem fold_arg0 : StableHlo.after Cert.ReferenceIdeal.ValueP.ops (launchContents m c) (Proc.devRef .tc main_arg0) = m ((c.tc : Thread nD τ).loc main_arg0) :=
  (show _ = launchContents m c (Proc.devRef .tc main_arg0) by keeps_host Cert.ReferenceIdeal.ValueP.ops).trans rfl
theorem fold_arg1 : StableHlo.after Cert.ReferenceIdeal.ValueP.ops (launchContents m c) (Proc.devRef .tc main_arg1) = m ((c.tc : Thread nD τ).loc main_arg1) :=
  (show _ = launchContents m c (Proc.devRef .tc main_arg1) by keeps_host Cert.ReferenceIdeal.ValueP.ops).trans rfl
theorem fold_arg2 : StableHlo.after Cert.ReferenceIdeal.ValueP.ops (launchContents m c) (Proc.devRef .tc main_arg2) = m ((c.tc : Thread nD τ).loc main_arg2) :=
  (show _ = launchContents m c (Proc.devRef .tc main_arg2) by keeps_host Cert.ReferenceIdeal.ValueP.ops).trans rfl
theorem fold_arg3 : StableHlo.after Cert.ReferenceIdeal.ValueP.ops (launchContents m c) (Proc.devRef .tc main_arg3) = m ((c.tc : Thread nD τ).loc main_arg3) :=
  (show _ = launchContents m c (Proc.devRef .tc main_arg3) by keeps_host Cert.ReferenceIdeal.ValueP.ops).trans rfl
theorem fold_arg4 : StableHlo.after Cert.ReferenceIdeal.ValueP.ops (launchContents m c) (Proc.devRef .tc main_arg4) = m ((c.tc : Thread nD τ).loc main_arg4) :=
  (show _ = launchContents m c (Proc.devRef .tc main_arg4) by keeps_host Cert.ReferenceIdeal.ValueP.ops).trans rfl
theorem fold_arg5 : StableHlo.after Cert.ReferenceIdeal.ValueP.ops (launchContents m c) (Proc.devRef .tc main_arg5) = m ((c.tc : Thread nD τ).loc main_arg5) :=
  (show _ = launchContents m c (Proc.devRef .tc main_arg5) by keeps_host Cert.ReferenceIdeal.ValueP.ops).trans rfl

/-- The reference's run with its result named: every weakly fair execution terminates with the result buffer at
    the one function of the arguments, the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v95)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (fold_result m c),
      (h c main_arg0).trans (fold_arg0 m c), (h c main_arg1).trans (fold_arg1 m c), (h c main_arg2).trans (fold_arg2 m c),
      (h c main_arg3).trans (fold_arg3 m c), (h c main_arg4).trans (fold_arg4 m c), (h c main_arg5).trans (fold_arg5 m c)⟩)
    (Cert.ReferenceIdeal.ValueP.run_fold (F := Ideal) m ρ)

end Cert.ReferenceIdeal.RefValue

end
-- ==== Proof.SameLayers.lean ====
/-
  The two programs spell the graph layers with the same host operations.

  Each program's text names its own copies of the shapes, of the gather and scatter dimension records and of the
  side conditions; as terms the copies are the same literals, so each layer function of one program is the other's.
-/
import proofs.«109161_j51513837748925_1_alg».proof.Proof.StagesK
import proofs.«109161_j51513837748925_1_alg».proof.Proof.StagesR

noncomputable section

namespace Cert.SameLayers

open Idealize.ShloMosaic

variable {F : FTy → Type} [FloatOps F]

theorem row0_eq : (Cert.KernelIdeal.Stages.row0 (F := F)) = Cert.ReferenceIdeal.Stages.row0 := rfl
theorem row1_eq : (Cert.KernelIdeal.Stages.row1 (F := F)) = Cert.ReferenceIdeal.Stages.row1 := rfl
theorem withLoops_eq : (Cert.KernelIdeal.Stages.withLoops (F := F)) = Cert.ReferenceIdeal.Stages.withLoops := rfl
theorem srcs_eq : (Cert.KernelIdeal.Stages.srcs (F := F)) = Cert.ReferenceIdeal.Stages.srcs := rfl
theorem dsts_eq : (Cert.KernelIdeal.Stages.dsts (F := F)) = Cert.ReferenceIdeal.Stages.dsts := rfl
theorem column_eq : (Cert.KernelIdeal.Stages.column (F := F)) = Cert.ReferenceIdeal.Stages.column := rfl
theorem degreeOf_eq : (Cert.KernelIdeal.Stages.degreeOf (F := F)) = Cert.ReferenceIdeal.Stages.degreeOf := rfl
theorem weightOf_eq : (Cert.KernelIdeal.Stages.weightOf (F := F)) = Cert.ReferenceIdeal.Stages.weightOf := rfl
theorem weight_eq : (Cert.KernelIdeal.Stages.weight (F := F)) = Cert.ReferenceIdeal.Stages.weight := rfl
theorem preOf_eq : (Cert.KernelIdeal.Stages.preOf (F := F)) = Cert.ReferenceIdeal.Stages.preOf := rfl
theorem relu_eq : (Cert.KernelIdeal.Stages.relu (F := F)) = Cert.ReferenceIdeal.Stages.relu := rfl
theorem hiddenOf_eq : (Cert.KernelIdeal.Stages.hiddenOf (F := F)) = Cert.ReferenceIdeal.Stages.hiddenOf := rfl
theorem hidden_eq : (Cert.KernelIdeal.Stages.hidden (F := F)) = Cert.ReferenceIdeal.Stages.hidden := rfl
theorem logitsOf_eq : (Cert.KernelIdeal.Stages.logitsOf (F := F)) = Cert.ReferenceIdeal.Stages.logitsOf := rfl
theorem logits_eq : (Cert.KernelIdeal.Stages.logits (F := F)) = Cert.ReferenceIdeal.Stages.logits := rfl
theorem shifted_eq : (Cert.KernelIdeal.Stages.shifted (F := F)) = Cert.ReferenceIdeal.Stages.shifted := rfl
theorem logSoftmax_eq : (Cert.KernelIdeal.Stages.logSoftmax (F := F)) = Cert.ReferenceIdeal.Stages.logSoftmax := rfl

end Cert.SameLayers

end
-- ==== Proof.lean ====
/-
  The proof of `Cert.Claim` for a two-layer graph convolution network.

  The program computes log_softmax(Â·relu(Â·(x·W1) + b1)·W2 + b2) row by row, Â the adjacency with self loops scaled by
  rsqrt(deg(source))·rsqrt(deg(target)). The two dense products x·W1 and hidden·W2 are TensorCore kernels, each over 10
  blocks of 5000 rows; everything else — the edge lists, degrees and weights, the gather of source rows, the weighted
  sum at each target, the biases, the maximum with zero, the log-softmax — is the same sequence of host operations in
  both programs (the reference recomputes the weights for its second layer, from the same edge list).

  Over the extended reals a block product's entry (p, c) at grid point t is Σ_k x(5000·t + p, k)·W(k, c), the entry
  (5000·t + p, c) of the whole product, the narrowing of the operands to bfloat16 being the identity; the 10 blocks tile
  the result; and the host's `dot_general` is the same sum. So both results are one function of the six arguments,
  with no appeal to the inputs being finite: no sum is regrouped and nothing is cancelled.

  Frames: the two kernel programs' are the generated ones; the reference's is its run with the result dropped. The
  idealization rewrote nothing, so `preserves` is trivial.
-/
import proofs.«109161_j51513837748925_1_alg».proof.Defs
import proofs.«109161_j51513837748925_1_alg».proof.Proof.Gen.Kernel
import proofs.«109161_j51513837748925_1_alg».proof.Proof.Gen.Kernel.Frame
import proofs.«109161_j51513837748925_1_alg».proof.Proof.Gen.KernelIdeal
import proofs.«109161_j51513837748925_1_alg».proof.Proof.Gen.KernelIdeal.Frame
import proofs.«109161_j51513837748925_1_alg».proof.Proof.Gen.ReferenceIdeal
import proofs.«109161_j51513837748925_1_alg».proof.Proof.Gen.Pre_finite_inputs
import proofs.«109161_j51513837748925_1_alg».proof.Proof.KernelRun
import proofs.«109161_j51513837748925_1_alg».proof.Proof.KernelValue
import proofs.«109161_j51513837748925_1_alg».proof.Proof.RefValue
import proofs.«109161_j51513837748925_1_alg».proof.Proof.SameLayers
import Idealize.ShloMosaic.Adequacy
import Idealize.ShloMosaic.Init

noncomputable section

namespace Cert.Proof

open Idealize.ShloMosaic Idealize.ShloMosaic.TcCoe Idealize.SL.Sem

/-- One program's result function is the other's: the layers are the same host operations (`Cert.SameLayers`) around
    the same entrywise products. -/
theorem result_eq : Cert.ReferenceIdeal.RefValue.result = Cert.KernelIdeal.Reads.result := by
  unfold Cert.ReferenceIdeal.RefValue.result Cert.KernelIdeal.Reads.result
  rw [Cert.SameLayers.logSoftmax_eq, Cert.SameLayers.logits_eq, Cert.SameLayers.hidden_eq]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run m ρ)

/-- Both programs end with the result buffer at the one function of the arguments, which agree. -/
theorem algebraic : Cert.algebraic_KernelIdeal_ReferenceIdeal := by
  intro m ρ m' ρ' _ hagree
  refine ⟨fun c => Cert.KernelIdeal.Reads.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Reads.W7_result m ρ c), (h c).2⟩)
      (Cert.KernelIdeal.RunResult.run_result m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1,
      (hagree c).2.2.2.2.1, (hagree c).2.2.2.2.2, result_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
